-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2048 : Shape := ⟨2, ![65536, 2048]⟩
abbrev S262144 : Shape := ⟨1, ![262144]⟩
abbrev S2048 : Shape := ⟨1, ![2048]⟩
abbrev S_ : Shape := ⟨0, ![]⟩

class Facts : Prop where
  bcast_S_S65536x2048 : S_.BroadcastsInDim S65536x2048 (![] : Fin 0 → Fin S65536x2048.rank)
  reducesTo_S65536x2048_S_d0_1 : S65536x2048.ReducesTo [0, 1] S_
  h_S_ : 0 < S_.numel
  bcast_S_S262144 : S_.BroadcastsInDim S262144 (![] : Fin 0 → Fin S262144.rank)
  reducesTo_S262144_S_d0 : S262144.ReducesTo [0] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S65536x2048 .f32) (main_arg1 : FVec F S262144 .f32) (main_arg2 : FVec F S2048 .f32) (main_arg3 : IVec S262144 32) (main_arg4 : IVec S262144 32) : IVec S_ 1 :=
  let main_v0 : FVec F S65536x2048 .f32 := Host.absf main_arg0
  let main_cst : FVec F S_ .f32 := constant S_ .f32 0x7F800000#32
  let main_v1 : FVec F S65536x2048 .f32 := broadcastInDim S65536x2048 ![] bcast_S_S65536x2048 main_cst
  let main_v2 : IVec S65536x2048 1 := cmpf .olt main_v0 main_v1
  let main_c : IVec S_ 1 := constantI S_ 1 1#1
  let main_v3 : IVec S_ 1 := (fun x v => Host.reduce IntOp.andi x v reducesTo_S65536x2048_S_d0_1 h_S_) main_v2 main_c
  let main_v4 : FVec F S262144 .f32 := Host.absf main_arg1
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S65536x2048 : Shape := ⟨2, ![65536, 2048]⟩
abbrev S262144 : Shape := ⟨1, ![262144]⟩
abbrev S2048 : Shape := ⟨1, ![2048]⟩
abbrev S_ : Shape := ⟨0, ![]⟩
abbrev S2048x2048 : Shape := ⟨2, ![2048, 2048]⟩
abbrev S262144x1 : Shape := ⟨2, ![262144, 1]⟩
abbrev S262144x2 : Shape := ⟨2, ![262144, 2]⟩
abbrev S1x2048 : Shape := ⟨2, ![1, 2048]⟩
abbrev S512x2048 : Shape := ⟨2, ![512, 2048]⟩

abbrev nBuf : Space → Nat
  | .hbm => 28
  | .vmem => 6
  | .smem => 0
  | _ => 0

abbrev bufTy : (tb : Table) → Fin (tcTables nBuf tb) → BufTy
  | .hbm, ⟨0, _⟩ => ⟨S65536x2048, .f32⟩
  | .hbm, ⟨1, _⟩ => ⟨S262144, .f32⟩
  | .hbm, ⟨2, _⟩ => ⟨S2048, .f32⟩
  | .hbm, ⟨3, _⟩ => ⟨S262144, .i32⟩
  | .hbm, ⟨4, _⟩ => ⟨S262144, .i32⟩
  | .hbm, ⟨5, _⟩ => ⟨S_, .f32⟩
  | .hbm, ⟨6, _⟩ => ⟨S2048x2048, .f32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x1, .i32⟩
  | .hbm, ⟨23, _⟩ => ⟨S262144x2, .i32⟩
  | .hbm, ⟨24, _⟩ => ⟨S2048x2048, .f32⟩
  | .hbm, ⟨25, _⟩ => ⟨S2048x2048, .bf16⟩
  | .hbm, ⟨26, _⟩ => ⟨S1x2048, .f32⟩
  | .hbm, ⟨27, _⟩ => ⟨S65536x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S1x2048, .f32⟩
  | .local _ .vmem, ⟨4, _⟩ => ⟨S512x2048, .f32⟩
  | .local _ .vmem, ⟨5, _⟩ => ⟨S512x2048, .f32⟩
  | _, _ => ⟨S65536x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S2048x2048 : S_.BroadcastsInDim S2048x2048 (![] : Fin 0 → Fin S2048x2048.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bitsLt_bf16_f32 : FTy.bits .bf16 < FTy.bits .f32
  shapeCasts_S2048_S1x2048 : S2048.ShapeCasts S1x2048
  inb_S512x2048_S512x2048_0_0 : ∀ a, (![0, 0] : Fin 2 → Nat) a + S512x2048.size a ≤ S512x2048.size a
  h_S512x2048 : 0 < S512x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  scatter_S2048x2048_S262144x2_S262144_n_01_01_1_wf : ScatterDims.WF S2048x2048 S262144x2 S262144 [] [0, 1] [0, 1] 1
  dot_S512x2048_S2048x2048_S512x2048_1_1_0_0_n_n_wf : DotDims.WF S512x2048 S2048x2048 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S65536x2048.size a
  hwx0_0 : ∀ i : grid0.Coords, EltTy.bits .f32 = 32 ∨ (Rect.block (s := S65536x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S65536x2048.size a
  hwx0_3 : ∀ i : grid0.Coords, EltTy.bits .f32 = 32 ∨ (Rect.block (s := S65536x2048) S512x2048.size (cc0_transform_3 i) (hinb0_3 i)).WholeWords (EltTy.packing .f32)

variable [Facts₀]

def scatter_S2048x2048_S262144x2_S262144_n_01_01_1 : ScatterDims S2048x2048 S262144x2 S262144 where
  updateWindowDims := []
  insertedWindowDims := [0, 1]
  scatterDimsToOperandDims := [0, 1]
  indexVectorDim := 1
  wf := scatter_S2048x2048_S262144x2_S262144_n_01_01_1_wf
def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S512x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S65536x2048 : Shape := ⟨2, ![65536, 2048]⟩
abbrev S262144 : Shape := ⟨1, ![262144]⟩
abbrev S2048 : Shape := ⟨1, ![2048]⟩
abbrev S_ : Shape := ⟨0, ![]⟩
abbrev S2048x2048 : Shape := ⟨2, ![2048, 2048]⟩
abbrev S262144x1 : Shape := ⟨2, ![262144, 1]⟩
abbrev S262144x2 : Shape := ⟨2, ![262144, 2]⟩
abbrev S1x2048 : Shape := ⟨2, ![1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S65536x2048, .f32⟩
  | .hbm, ⟨1, _⟩ => ⟨S262144, .f32⟩
  | .hbm, ⟨2, _⟩ => ⟨S2048, .f32⟩
  | .hbm, ⟨3, _⟩ => ⟨S262144, .i32⟩
  | .hbm, ⟨4, _⟩ => ⟨S262144, .i32⟩
  | .hbm, ⟨5, _⟩ => ⟨S_, .f32⟩
  | .hbm, ⟨6, _⟩ => ⟨S2048x2048, .f32⟩
  | .hbm, ⟨7, _⟩ => ⟨S_, .i32⟩
  | .hbm, ⟨8, _⟩ => ⟨S262144, .i32⟩
  | .hbm, ⟨9, _⟩ => ⟨S262144, .i1⟩
  | .hbm, ⟨10, _⟩ => ⟨S_, .i32⟩
  | .hbm, ⟨11, _⟩ => ⟨S262144, .i32⟩
  | .hbm, ⟨12, _⟩ => ⟨S262144, .i32⟩
  | .hbm, ⟨13, _⟩ => ⟨S262144, .i32⟩
  | .hbm, ⟨14, _⟩ => ⟨S_, .i32⟩
  | .hbm, ⟨15, _⟩ => ⟨S262144, .i32⟩
  | .hbm, ⟨16, _⟩ => ⟨S262144, .i1⟩
  | .hbm, ⟨17, _⟩ => ⟨S_, .i32⟩
  | .hbm, ⟨18, _⟩ => ⟨S262144, .i32⟩
  | .hbm, ⟨19, _⟩ => ⟨S262144, .i32⟩
  | .hbm, ⟨20, _⟩ => ⟨S262144, .i32⟩
  | .hbm, ⟨21, _⟩ => ⟨S262144x1, .i32⟩
  | .hbm, ⟨22, _⟩ => ⟨S262144x1, .i32⟩
  | .hbm, ⟨23, _⟩ => ⟨S262144x2, .i32⟩
  | .hbm, ⟨24, _⟩ => ⟨S2048x2048, .f32⟩
  | .hbm, ⟨25, _⟩ => ⟨S65536x2048, .f32⟩
  | .hbm, ⟨26, _⟩ => ⟨S1x2048, .f32⟩
  | .hbm, ⟨27, _⟩ => ⟨S65536x2048, .f32⟩
  | .hbm, ⟨28, _⟩ => ⟨S65536x2048, .f32⟩
  | _, _ => ⟨S65536x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S_S262144 : S_.BroadcastsInDim S262144 (![] : Fin 0 → Fin S262144.rank)
  bcast_S262144_S262144x1_0 : S262144.BroadcastsInDim S262144x1 (![0] : Fin 1 → Fin S262144x1.rank)
  concatenates_S262144x1_S262144x1_S262144x2_d1 : Shape.Concatenates [S262144x1, S262144x1] S262144x2 1
  bcast_S2048_S1x2048_1 : S2048.BroadcastsInDim S1x2048 (![1] : Fin 1 → Fin S1x2048.rank)
  bcast_S1x2048_S65536x2048_0_1 : S1x2048.BroadcastsInDim S65536x2048 (![0, 1] : Fin 2 → Fin S65536x2048.rank)
  scatter_S2048x2048_S262144x2_S262144_n_01_01_1_wf : ScatterDims.WF S2048x2048 S262144x2 S262144 [] [0, 1] [0, 1] 1
  dot_S65536x2048_S2048x2048_S65536x2048_1_1_0_0_n_n_wf : DotDims.WF S65536x2048 S2048x2048 S65536x2048 [1] [1] [0] [0] [] []

variable [Facts₀]

def scatter_S2048x2048_S262144x2_S262144_n_01_01_1 : ScatterDims S2048x2048 S262144x2 S262144 where
  updateWindowDims := []
  insertedWindowDims := [0, 1]
  scatterDimsToOperandDims := [0, 1]
  indexVectorDim := 1
  wf := scatter_S2048x2048_S262144x2_S262144_n_01_01_1_wf
def dot_S65536x2048_S2048x2048_S65536x2048_1_1_0_0_n_n : DotDims S65536x2048 S2048x2048 S65536x2048 where
  lhsContracting := [1]
  rhsContracting := [1]
  lhsNonContracting := [0]
  rhsNonContracting := [0]
  lhsBatch := []
  rhsBatch := []
  wf := dot_S65536x2048_S2048x2048_S65536x2048_1_1_0_0_n_n_wf

class Facts : Prop extends Facts₀ where

variable [Facts]
-- ==== Proof.Payload.lean ====
/-
  What the kernel body stores, read at one entry.

  The body loads a 512 × 2048 block of inputs, the whole 2048 × 2048 weight matrix and the 1 × 2048 bias row,
  multiplies the block by the transpose of the weights into a zero accumulator, and adds the bias row to every row
  of the product. At row `r` and column `o` of the block that is

      (∑ k, x[r, k] · w[o, k]) + b[0, o] :

  the change of float format on the way into the product is the identity on extended reals, the zero accumulator
  adds nothing, the two shape casts are to the shape the operand already has, and the contraction's one axis is the
  input feature `k`, second coordinate of both operands.
-/
import proofs.«167370_j3032246911256_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.SparseLinear

open Cert.KernelIdeal Cert.KernelIdeal.Gen Idealize.ShloMosaic Idealize.ShloMosaic.ValueIdx

/-- The block product's dimension numbers: each operand contracts its second axis, the rows of the block and the
    rows of the weights are kept. -/
abbrev blockDot : DotDims S512x2048 S2048x2048 S512x2048 := dot_S512x2048_S2048x2048_S512x2048_1_1_0_0_n_n

/-- The left operand is read in the result's row … -/
theorem lhs_row (i : S512x2048.Idx) (q : blockDot.contr.Idx) : (blockDot.lhsIdx i q 0).val = (i 0).val := by
  unfold DotDims.lhsIdx
  rw [dif_neg (show ¬(0 : Fin S512x2048.rank) ∈ blockDot.lhsBatch by decide),
    dif_pos (show (0 : Fin S512x2048.rank) ∈ blockDot.lhsNonContracting by decide)]
  rfl
/-- … at the contracted feature; -/
theorem lhs_feature (i : S512x2048.Idx) (q : blockDot.contr.Idx) :
    (blockDot.lhsIdx i q 1).val = (q ⟨0, by decide⟩).val :=
  blockDot.lhsIdx_val_of_single rfl i q
/-- the right operand in the row numbered by the result's column … -/
theorem rhs_row (i : S512x2048.Idx) (q : blockDot.contr.Idx) : (blockDot.rhsIdx i q 0).val = (i 1).val := by
  unfold DotDims.rhsIdx
  rw [dif_neg (show ¬(0 : Fin S2048x2048.rank) ∈ blockDot.rhsBatch by decide),
    dif_pos (show (0 : Fin S2048x2048.rank) ∈ blockDot.rhsNonContracting by decide)]
  rfl
/-- … at the same feature. -/
theorem rhs_feature (i : S512x2048.Idx) (q : blockDot.contr.Idx) :
    (blockDot.rhsIdx i q 1).val = (q ⟨0, by decide⟩).val :=
  blockDot.rhsIdx_val_of_single rfl i q

/-- The product into a zero accumulator, at row `r` and column `o`: the sum over the features `k` of the left
    operand at `(r, k)` times the right operand at `(o, k)`. -/
theorem blockProduct_apply (xb : FVec Ideal S512x2048 .bf16) (wb : FVec Ideal S2048x2048 .bf16) (r : Fin 512) (o : Fin 2048) :
    matmul blockDot none xb wb (constant (F := Ideal) S512x2048 .f32 0x00000000#32) (ix2 r o)
      = ∑ k : Fin 2048, xb (ix2 r k) * wb (ix2 o k) := by
  simp only [matmul]
  rw [Ideal.matmul_constant_zero_apply, ← Equiv.sum_comp (contrEquiv1 blockDot 2048 rfl rfl).symm]
  refine Finset.sum_congr rfl fun k _ => ?_
  have hk := contrEquiv1_symm_val blockDot 2048 rfl rfl k
  have el : blockDot.lhsIdx (ix2 r o) ((contrEquiv1 blockDot 2048 rfl rfl).symm k) = ix2 r k :=
    funext fun a => Fin.ext (by
      match a with
      | ⟨0, _⟩ => exact lhs_row _ _
      | ⟨1, _⟩ => exact (lhs_feature _ _).trans hk)
  have er : blockDot.rhsIdx (ix2 r o) ((contrEquiv1 blockDot 2048 rfl rfl).symm k) = ix2 o k :=
    funext fun a => Fin.ext (by
      match a with
      | ⟨0, _⟩ => exact rhs_row _ _
      | ⟨1, _⟩ => exact (rhs_feature _ _).trans hk)
  rw [el, er]

/-- THE STORED VALUE at row `r` and column `o` of the block, from the three loaded values. -/
theorem payload_apply (x0 : Vec Ideal S512x2048 .f32) (x1 : Vec Ideal S2048x2048 .bf16) (x2 : Vec Ideal S1x2048 .f32)
    (r : Fin 512) (o : Fin 2048) :
    k0_pay1 (F := Ideal) x0 x1 x2 (ix2 r o)
      = (∑ k : Fin 2048, x0 (ix2 r k) * x1 (ix2 o k)) + x2 (ix2 (0 : Fin 1) o) := by
  unfold k0_pay1
  rw [addf_apply, blockProduct_apply, broadcastTo_1b_ab_apply, shapeCast_self, shapeCast_self]
  rfl

end Cert.SparseLinear

end
-- ==== Proof.Affine.lean ====
/-
  The function both programs compute, stated once over the extended reals.

  With `x` a 65536 × 2048 matrix of inputs, `w` a 2048 × 2048 matrix of weights (row `o` holds the weights of
  output feature `o`) and `b` a vector of 2048 biases, the result at row `n` and column `o` is

      (∑ k, x[n, k] · w[o, k]) + b[o],

  the product of `x` with the transpose of `w`, plus the bias of the column. Nothing here asks the entries to be
  finite: the sum is one and the same sum on both sides of the certificate, term by term and in the same order of
  its index, so no law of the extended reals beyond reading each side is used.
-/
import Idealize.ShloMosaic.PureOps.Ideal
import Idealize.ShloMosaic.Lib.ValueIdx

noncomputable section

namespace Cert.SparseLinear

open Idealize.ShloMosaic Idealize.ShloMosaic.ValueIdx

/-- `x · wᵀ + b`, entry by entry: at `(n, o)` the sum over the 2048 input features `k` of `x[n, k] · w[o, k]`,
    plus `b[o]`. -/
def affine (x : (⟨2, ![65536, 2048]⟩ : Shape).Idx → EReal) (w : (⟨2, ![2048, 2048]⟩ : Shape).Idx → EReal)
    (b : (⟨1, ![2048]⟩ : Shape).Idx → EReal) : (⟨2, ![65536, 2048]⟩ : Shape).Idx → EReal :=
  fun i => (∑ k : Fin 2048, x (ix2 (i 0) k) * w (ix2 (i 1) k)) + b (ix1 (i 1))

/-- The same entry with the row and the column named. -/
theorem affine_apply (x : (⟨2, ![65536, 2048]⟩ : Shape).Idx → EReal) (w : (⟨2, ![2048, 2048]⟩ : Shape).Idx → EReal)
    (b : (⟨1, ![2048]⟩ : Shape).Idx → EReal) (n : Fin 65536) (o : Fin 2048) :
    affine x w b (ix2 n o) = (∑ k : Fin 2048, x (ix2 n k) * w (ix2 o k)) + b (ix1 o) := rfl

end Cert.SparseLinear

end
-- ==== Proof.BlockEntry.lean ====
/-
  One block of the result, entry by entry, from what the three staged blocks hold.

  The result is cut into 128 blocks of 512 consecutive rows. If the staged input block holds rows
  `512 T … 512 T + 511` of the input matrix, the staged weights are the weight matrix and the staged bias row is the
  bias vector laid out as one row, then what the body stores at row `r` and column `o` of the block is the entry
  of `x · wᵀ + b` at row `512 T + r` and column `o`: the two are the same sum over the input features, term by
  term, plus the same bias.
-/
import proofs.«167370_j3032246911256_1_alg».proof.Proof.Payload
import proofs.«167370_j3032246911256_1_alg».proof.Proof.Affine

noncomputable section

namespace Cert.SparseLinear

open Cert.KernelIdeal Cert.KernelIdeal.Gen Idealize.ShloMosaic Idealize.ShloMosaic.ValueIdx

/-- Row `r` of block `T` is row `512 T + r` of the matrix. -/
def rowOf (T : Fin 128) (r : Fin 512) : Fin 65536 :=
  ⟨T.val * 512 + r.val, by have := T.isLt; have := r.isLt; omega⟩

theorem rowOf_val (T : Fin 128) (r : Fin 512) : (rowOf T r).val = T.val * 512 + r.val := rfl

/-- The stored value at `(r, o)` of block `T` is `x · wᵀ + b` at `(512 T + r, o)`, when the loaded values are
    the block's rows of `X` (`h0`), the whole of `W` (`h1`) and `b` as a row (`h2`). -/
theorem block_entry (X : (⟨2, ![65536, 2048]⟩ : Shape).Idx → EReal) (W : (⟨2, ![2048, 2048]⟩ : Shape).Idx → EReal)
    (b : (⟨1, ![2048]⟩ : Shape).Idx → EReal)
    (x0 : Vec Ideal S512x2048 .f32) (x1 : Vec Ideal S2048x2048 .bf16) (x2 : Vec Ideal S1x2048 .f32) (T : Fin 128)
    (h0 : ∀ (r : Fin 512) (k : Fin 2048), x0 (ix2 r k) = X (ix2 (rowOf T r) k))
    (h1 : ∀ o k : Fin 2048, x1 (ix2 o k) = W (ix2 o k))
    (h2 : ∀ o : Fin 2048, x2 (ix2 (0 : Fin 1) o) = b (ix1 o)) (r : Fin 512) (o : Fin 2048) :
    k0_pay1 (F := Ideal) x0 x1 x2 (ix2 r o) = affine X W b (ix2 (rowOf T r) o) := by
  rw [payload_apply, affine_apply, h2]
  refine congrArg (fun s : EReal => s + b (ix1 o)) (Finset.sum_congr rfl fun k _ => ?_)
  rw [h0, h1]

end Cert.SparseLinear

end
-- ==== Proof.KernelArray.lean ====
/-
  From the blocks the kernel writes back to the whole result array.

  The grid has 128 points. Point `t` stages rows `512 t … 512 t + 511` of the input matrix, the whole weight
  matrix as the region finds it (the array the host operations before the region leave: the scattered weights,
  converted) and the whole bias row (the bias vector, reshaped to one row), and writes back rows
  `512 t … 512 t + 511` of the result. By `block_entry` what it writes back is that block of `x · wᵀ + b`; row `n`
  of the result lies in the block of point `n / 512`, so the 128 blocks cover the array and the array ends holding
  `x · wᵀ + b` everywhere.
-/
import proofs.«167370_j3032246911256_1_alg».proof.Proof.Gen.KernelIdeal.Value
import proofs.«167370_j3032246911256_1_alg».proof.Proof.BlockEntry
import Idealize.ShloMosaic.Lib.Pipeline.Value
import Idealize.ShloMosaic.Lib.ValueLayout
import Idealize.ShloMosaic.Lib.StableHlo.Run

noncomputable section

namespace Cert.SparseLinear

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The dense weight matrix as the region finds it. -/
abbrev weights (c : Dev nD) : S2048x2048.Idx → EReal := V m c main_v15

/-- What the result array is to hold: `x · wᵀ + b` of the input matrix, those weights and the bias vector. -/
abbrev result (c : Dev nD) : S65536x2048.Idx → EReal :=
  affine (m ((c : Thread nD τ).loc main_arg0)) (weights m c) (m ((c : Thread nD τ).loc main_arg2))

/-- The bias row the region finds is the bias vector reshaped to `1 × 2048` … -/
theorem bias_row (c : Dev nD) :
    (V m c main_v16 : S1x2048.Idx → EReal)
      = shapeCast S1x2048 (m ((c : Thread nD τ).loc main_arg2) : S2048.Idx → EReal) shapeCasts_S2048_S1x2048 := by
  dsimp only [Gen.V, Gen.hostOps0]
  after_results
  rfl

/-- … so its entry in column `o` is the bias of `o`. -/
theorem bias_entry (c : Dev nD) (o : Fin 2048) :
    (V m c main_v16 : S1x2048.Idx → EReal) (ix2 (0 : Fin 1) o)
      = (m ((c : Thread nD τ).loc main_arg2) : S2048.Idx → EReal) (ix1 o) :=
  (congrFun (bias_row m c) _).trans (shapeCast_a_1a_apply _ _ 0 o)

/-- The block indices over the grid: the input and the result move down one block of rows per point, the weights and
    the bias row stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- WHAT POINT `t` WRITES BACK is block `t` of `x · wᵀ + b`. -/
theorem flushed_eq (c : Dev nD) (t : Fin cfg0.N) :
    (dats m 0 c).flushed 3 t = ((cfg0.win 3).blk t).view.read (Elt Ideal) (result m c) := by
  rw [Cert.KernelIdeal.Value.flushed3]
  unfold out0_3
  rw [View.canon_unit_zero zero_offsets]
  simp only [View.ld_unit_zero (S := S512x2048) zero_offsets, View.ld_unit_zero (S := S2048x2048) zero_offsets,
    View.ld_unit_zero (S := S1x2048) zero_offsets]
  obtain ⟨e00, e01, e10, e11, e20, e21, e30, e31⟩ := block_indices t
  funext y
  obtain ⟨r, o, rfl⟩ : ∃ (r : Fin 512) (o : Fin 2048), y = ix2 r o := ⟨y 0, y 1, eq_ix2 y⟩
  show k0_pay1 (iblk m c 0 t) (iblk m c 1 t) (iblk m c 2 t) (ix2 r o)
    = result m c (((cfg0.win 3).blk t).view.emb (ix2 r o))
  have hemb : ((cfg0.win 3).blk t).view.emb (ix2 r o) = ix2 (rowOf (Fin.cast N_0 t) r) o := by
    funext a; apply Fin.ext
    match a with
    | ⟨0, _⟩ => show win0_3.index t (0 : Fin 2) * 512 + 1 * r.val = t.val * 512 + r.val; rw [e30]; omega
    | ⟨1, _⟩ => show win0_3.index t (1 : Fin 2) * 2048 + 1 * o.val = o.val; rw [e31]; omega
  rw [hemb]
  refine block_entry (m ((c : Thread nD τ).loc main_arg0)) (weights m c) (m ((c : Thread nD τ).loc main_arg2))
    (iblk m c 0 t) (iblk m c 1 t) (iblk m c 2 t) (Fin.cast N_0 t) ?_ ?_ ?_ r o
  · intro r k
    show V m c main_arg0 (((cfg0.win 0).blk t).view.emb (ix2 r k)) = m ((c : Thread nD τ).loc main_arg0) (ix2 (rowOf (Fin.cast N_0 t) r) k)
    rw [V_main_arg0]
    refine congrArg (m ((c : Thread nD τ).loc main_arg0)) (funext fun a => Fin.ext ?_)
    match a with
    | ⟨0, _⟩ => show win0_0.index t (0 : Fin 2) * 512 + 1 * r.val = t.val * 512 + r.val; rw [e00]; omega
    | ⟨1, _⟩ => show win0_0.index t (1 : Fin 2) * 2048 + 1 * k.val = k.val; rw [e01]; omega
  · intro o k
    show V m c main_v15 (((cfg0.win 1).blk t).view.emb (ix2 o k)) = V m c main_v15 (ix2 o k)
    refine congrArg (V m c main_v15) (funext fun a => Fin.ext ?_)
    match a with
    | ⟨0, _⟩ => show win0_1.index t (0 : Fin 2) * 2048 + 1 * o.val = o.val; rw [e10]; omega
    | ⟨1, _⟩ => show win0_1.index t (1 : Fin 2) * 2048 + 1 * k.val = k.val; rw [e11]; omega
  · intro o
    show V m c main_v16 (((cfg0.win 2).blk t).view.emb (ix2 (0 : Fin 1) o)) = m ((c : Thread nD τ).loc main_arg2) (ix1 o)
    refine Eq.trans (congrArg (V m c main_v16) (funext fun a => Fin.ext ?_)) (bias_entry m c o)
    match a with
    | ⟨0, _⟩ => show win0_2.index t (0 : Fin 2) * 1 + 1 * 0 = 0; rw [e20]
    | ⟨1, _⟩ => show win0_2.index t (1 : Fin 2) * 2048 + 1 * o.val = o.val; rw [e21]; omega

/-- An index of the array is in point `t`'s block iff each coordinate is in the block's range on its axis. -/
theorem mem_block (t : Fin cfg0.N) (i : S65536x2048.Idx) :
    i ∈ ((cfg0.win 3).blk t).view.set ↔ ∀ a : Fin 2, win0_3.index t a * S512x2048.size a ≤ (i a).val
      ∧ (i a).val < win0_3.index t a * S512x2048.size a + S512x2048.size a := by
  show i ∈ ((View.whole main_v17).slice (win0_3.rect t)).set ↔ _
  rw [View.set_slice_whole, Rect.mem_set_unit]
  exact Iff.rfl

/-- Every entry of the result lies in the block of the point numbered by its row divided by 512. -/
theorem covered (i : S65536x2048.Idx) :
    ∃ t : Fin cfg0.N, (cfg0.win 3).flush t = true ∧ i ∈ ((cfg0.win 3).blk t).view.set := by
  have hi0 : (i 0).val < 65536 := (i 0).isLt
  have hi1 : (i 1).val < 2048 := (i 1).isLt
  have hN : cfg0.N = 128 := N_0
  have ht : (i 0).val / 512 < cfg0.N := by rw [hN]; omega
  obtain ⟨-, -, -, -, -, -, e30, e31⟩ := block_indices ⟨(i 0).val / 512, ht⟩
  refine ⟨⟨(i 0).val / 512, ht⟩, flush0_3 _, ?_⟩
  rw [mem_block]
  intro a
  match a with
  | ⟨0, _⟩ =>
    show win0_3.index ⟨(i 0).val / 512, ht⟩ (0 : Fin 2) * 512 ≤ (i 0).val
      ∧ (i 0).val < win0_3.index ⟨(i 0).val / 512, ht⟩ (0 : Fin 2) * 512 + 512
    rw [e30]
    show (i 0).val / 512 * 512 ≤ (i 0).val ∧ (i 0).val < (i 0).val / 512 * 512 + 512
    omega
  | ⟨1, _⟩ =>
    show win0_3.index ⟨(i 0).val / 512, ht⟩ (1 : Fin 2) * 2048 ≤ (i 1).val
      ∧ (i 1).val < win0_3.index ⟨(i 0).val / 512, ht⟩ (1 : Fin 2) * 2048 + 2048
    rw [e31]
    omega

/-- THE RESULT ARRAY after the run is `x · wᵀ + b`. -/
theorem final (c : Dev nD) : (dats m 0 c).arrAt 3 cfg0.N = result m c :=
  (dats m 0 c).arrAt_eq_of_cover 3 (result m c) (fun t _ => flushed_eq m c t) covered

/-- The kernel's run, read: the result array at `x · wᵀ + b`, the arguments unchanged. -/
theorem kernel_run : θ_run defs (onTc (τ := τ) (main (F := Ideal))) ⟨m, fun _ => 0, ρ⟩ fun r => ∀ c : Dev nD,
      r.2.mem ((c : Thread nD τ).loc main_v17) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.SparseLinear

end
-- ==== Proof.RefAffine.lean ====
/-
  The reference's result is `affine` of the inputs, the scattered weights and the bias.

  The reference multiplies the whole input matrix by the transpose of the dense weight matrix (one `dot_general`
  contracting the second axis of both) and adds the bias broadcast over the rows. Read at `(n, o)`: the product is
  the sum over the features `k` of `x[n, k] · w[o, k]`, and the broadcast bias is `b[o]`. The dense weight
  matrix is whatever the scatter of the values at the (wrapped) row and column indices produces; it is carried here as
  one unopened term.
-/
import proofs.«167370_j3032246911256_1_alg».proof.Proof.Gen.ReferenceIdeal.Read
import proofs.«167370_j3032246911256_1_alg».proof.Proof.Affine

noncomputable section

namespace Cert.SparseLinear

open Cert.ReferenceIdeal Cert.ReferenceIdeal.Read Idealize.ShloMosaic Idealize.ShloMosaic.ValueIdx

/-- The reference's last stage, as a function of the five arguments, is `x · wᵀ + b` with `w` the scatter stage. -/
theorem reference_eq_affine (x0 : (⟨S65536x2048, .f32⟩ : BufTy).Contents (Elt Ideal))
    (x1 : (⟨S262144, .f32⟩ : BufTy).Contents (Elt Ideal)) (x2 : (⟨S2048, .f32⟩ : BufTy).Contents (Elt Ideal))
    (x3 x4 : (⟨S262144, .i32⟩ : BufTy).Contents (Elt Ideal)) :
    val_main_v18 (F := Ideal) x0 x1 x2 x3 x4 = affine x0 (val_main_v14 (F := Ideal) x1 x3 x4) x2 := by
  funext i
  obtain ⟨n, o, rfl⟩ : ∃ (n : Fin 65536) (o : Fin 2048), i = ix2 n o := ⟨i 0, i 1, eq_ix2 i⟩
  rw [val_main_v18_apply, val_main_v15_apply, val_main_v17_apply, val_main_v16_apply, affine_apply]
  have el : ∀ k : Fin 2048, lidx_main_v15 (ix2 n o) k = ix2 n k := fun k => funext fun a => Fin.ext (by
    match a with
    | ⟨0, _⟩ => rfl
    | ⟨1, _⟩ => rfl)
  have er : ∀ k : Fin 2048, ridx_main_v15 (ix2 n o) k = ix2 o k := fun k => funext fun a => Fin.ext (by
    match a with
    | ⟨0, _⟩ => rfl
    | ⟨1, _⟩ => rfl)
  have eb : idx_main_v16 (idx_main_v17 (ix2 n o)) = ix1 o := funext fun a => Fin.ext (by
    match a with
    | ⟨0, _⟩ => rfl)
  refine congrArg₂ (fun a b : EReal => a + b) (Finset.sum_congr rfl fun k _ => ?_) (congrArg x2 eb)
  rw [el k, er k]

end Cert.SparseLinear

end
-- ==== Proof.Weights.lean ====
/-
  The dense weight matrix the kernel's region finds is the reference's.

  Before the region the kernel's program wraps the negative row and column indices by 2048, pairs them, scatters the
  values at those pairs into a zero 2048 × 2048 matrix (adding where pairs repeat) and converts the sum to bf16;
  the reference runs the same operations on the same arguments, without the conversion. On extended reals the
  conversion is the identity, and the two scatters are one term — the same operation with the same dimension numbers
  applied to the same zero matrix, the same index pairs and the same values — so the two matrices are equal without the
  scatter ever being opened.
-/
import proofs.«167370_j3032246911256_1_alg».proof.Proof.Gen.KernelIdeal.Frame
import proofs.«167370_j3032246911256_1_alg».proof.Proof.Gen.ReferenceIdeal.Read
import Idealize.ShloMosaic.Lib.StableHlo.Run

noncomputable section

namespace Cert.SparseLinear

open Idealize.ShloMosaic Idealize.ShloMosaic.TcCoe Idealize.SL.Sem Idealize.ShloMosaic.StableHlo

set_option maxHeartbeats 2000000 in
/-- The array the kernel's weight window stages is the reference's scatter stage of the same three arguments. -/
theorem weights_eq (m : (ℓ : Loc Cert.KernelIdeal.nD Cert.KernelIdeal.τ Cert.KernelIdeal.sig) → Buf (Elt Ideal) ℓ)
    (c : Dev Cert.KernelIdeal.nD) :
    (Cert.KernelIdeal.Gen.V m c Cert.KernelIdeal.main_v15 : Cert.KernelIdeal.S2048x2048.Idx → EReal)
      = Cert.ReferenceIdeal.Read.val_main_v14 (F := Ideal)
          (m ((c : Thread Cert.KernelIdeal.nD Cert.KernelIdeal.τ).loc Cert.KernelIdeal.main_arg1))
          (m ((c : Thread Cert.KernelIdeal.nD Cert.KernelIdeal.τ).loc Cert.KernelIdeal.main_arg3))
          (m ((c : Thread Cert.KernelIdeal.nD Cert.KernelIdeal.τ).loc Cert.KernelIdeal.main_arg4)) := by
  dsimp only [Cert.KernelIdeal.Gen.V, Cert.KernelIdeal.Gen.hostOps0]
  after_results_simp
  rfl

end Cert.SparseLinear

end
-- ==== Proof.lean ====
/-
  The certificate of the sparse linear layer: the kernel's result equals the reference's on extended reals.

  Both programs first build a dense 2048 × 2048 weight matrix `w` by scattering the given values at the given
  (row, column) pairs into zeros, adding where pairs repeat. The reference then returns `x · wᵀ + b` as one matrix
  product plus the bias broadcast over the rows. The kernel converts `w` to bf16 (the identity on extended reals),
  lays the bias out as one row, and runs over 128 grid points; point `t` multiplies rows `512 t … 512 t + 511` of
  `x` by `wᵀ` into a zero accumulator, adds the bias row and writes those rows of the result.

  The proof: the value the kernel body stores at one entry is the sum over the input features of
  `x[n, k] · w[o, k]`, plus `b[o]` (Proof/Payload.lean, Proof/BlockEntry.lean); the 128 blocks cover the result, so
  the result array ends holding `x · wᵀ + b` (Proof/KernelArray.lean); the reference's last stage read at an entry
  is the same expression (Proof/RefAffine.lean); and the two weight matrices are one term (Proof/Weights.lean). No
  entry needs to be finite: each side is read as the same sum, in the same order.

  The three frames are the generated ones; the idealization rewrote nothing, so it is preserved trivially.
-/
import proofs.«167370_j3032246911256_1_alg».proof.Defs
import proofs.«167370_j3032246911256_1_alg».proof.Proof.Gen.Kernel
import proofs.«167370_j3032246911256_1_alg».proof.Proof.Gen.Kernel.Skeleton
import proofs.«167370_j3032246911256_1_alg».proof.Proof.Gen.Kernel.Launch
import proofs.«167370_j3032246911256_1_alg».proof.Proof.Gen.Kernel.Points
import proofs.«167370_j3032246911256_1_alg».proof.Proof.Gen.Kernel.Frame
import proofs.«167370_j3032246911256_1_alg».proof.Proof.Gen.KernelIdeal
import proofs.«167370_j3032246911256_1_alg».proof.Proof.Gen.KernelIdeal.Skeleton
import proofs.«167370_j3032246911256_1_alg».proof.Proof.Gen.KernelIdeal.Launch
import proofs.«167370_j3032246911256_1_alg».proof.Proof.Gen.KernelIdeal.Points
import proofs.«167370_j3032246911256_1_alg».proof.Proof.Gen.KernelIdeal.Frame
import proofs.«167370_j3032246911256_1_alg».proof.Proof.Gen.ReferenceIdeal
import proofs.«167370_j3032246911256_1_alg».proof.Proof.Gen.Pre_finite_inputs
import proofs.«167370_j3032246911256_1_alg».proof.Proof.Gen.KernelIdeal.Value
import proofs.«167370_j3032246911256_1_alg».proof.Proof.Gen.ReferenceIdeal.Run
import proofs.«167370_j3032246911256_1_alg».proof.Proof.Gen.ReferenceIdeal.Read
import proofs.«167370_j3032246911256_1_alg».proof.Proof.KernelArray
import proofs.«167370_j3032246911256_1_alg».proof.Proof.RefAffine
import proofs.«167370_j3032246911256_1_alg».proof.Proof.Weights
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, the kernel's result array ends at `x · wᵀ + b` with `w` the
    weight matrix its region finds, and the reference's at `x · wᵀ + b` with `w` its scatter stage: the same
    matrix, so the same result. -/
theorem algebraic : Cert.algebraic_KernelIdeal_ReferenceIdeal := by
  intro m ρ m' ρ' _ hagree
  refine ⟨fun c => Cert.SparseLinear.result m c, Cert.SparseLinear.kernel_run m ρ, ?_⟩
  refine (θ_run Cert.ReferenceIdeal.defs _ _).mono (fun _ h c => ⟨?_, (h c).2⟩)
    (Cert.ReferenceIdeal.Value.run (F := Ideal) m' ρ')
  obtain ⟨a0, a1, a2, a3, a4⟩ := hagree c
  rw [(h c).1, Cert.ReferenceIdeal.Read.val_main_v18_eq, Cert.SparseLinear.reference_eq_affine, a0, a1, a2, a3, a4,
    ← Cert.SparseLinear.weights_eq m c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
